-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x4096 : Shape := ⟨2, ![4096, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S32768x4096 .f32) (main_arg1 : FVec F S4096x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S32768x4096 : Shape := ⟨2, ![32768, 4096]⟩
abbrev S4096x4096 : Shape := ⟨2, ![4096, 4096]⟩
abbrev S1x4096 : Shape := ⟨2, ![1, 4096]⟩
abbrev S1024x2048 : Shape := ⟨2, ![1024, 2048]⟩
abbrev S1x2048 : Shape := ⟨2, ![1, 2048]⟩
abbrev S2048 : Shape := ⟨1, ![2048]⟩
abbrev S32768x1 : Shape := ⟨2, ![32768, 1]⟩
abbrev S512x4096 : Shape := ⟨2, ![512, 4096]⟩
abbrev S512x1 : Shape := ⟨2, ![512, 1]⟩
abbrev S512 : Shape := ⟨1, ![512]⟩

abbrev nBuf : Space → Nat
  | .hbm => 4
  | .vmem => 9
  | .smem => 0
  | _ => 0

abbrev bufTy : (tb : Table) → Fin (tcTables nBuf tb) → BufTy
  | .hbm, ⟨0, _⟩ => ⟨S32768x4096, .f32⟩
  | .hbm, ⟨1, _⟩ => ⟨S4096x4096, .f32⟩
  | .hbm, ⟨2, _⟩ => ⟨S1x4096, .f32⟩
  | .hbm, ⟨3, _⟩ => ⟨S32768x1, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S512x1, .f32⟩
  | .local _ .vmem, ⟨8, _⟩ => ⟨S512x1, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .f32 = 32 ∨ (Rect.block (s := S4096x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S32768x4096.size a
  hwx1_0 : ∀ i : grid1.Coords, EltTy.bits .f32 = 32 ∨ (Rect.block (s := S32768x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S32768x1.size a
  hwx1_2 : ∀ i : grid1.Coords, EltTy.bits .f32 = 32 ∨ (Rect.block (s := S32768x1) S512x1.size (cc1_transform_2 i) (hinb1_2 i)).WholeWords (EltTy.packing .f32)

variable [Facts₀]

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32768x4096 : Shape := ⟨2, ![32768, 4096]⟩
abbrev S4096x4096 : Shape := ⟨2, ![4096, 4096]⟩
abbrev S_ : Shape := ⟨0, ![]⟩
abbrev S32768 : Shape := ⟨1, ![32768]⟩
abbrev S32768x1 : Shape := ⟨2, ![32768, 1]⟩

abbrev nBuf : Space → Nat
  | .hbm => 9
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x4096, .f32⟩
  | .hbm, ⟨2, _⟩ => ⟨S32768x4096, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S32768x4096_S32768_d1 : S32768x4096.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  dot_S32768x4096_S4096x4096_S32768x4096_1_1_0_0_n_n_wf : DotDims.WF S32768x4096 S4096x4096 S32768x4096 [1] [1] [0] [0] [] []

variable [Facts₀]

def dot_S32768x4096_S4096x4096_S32768x4096_1_1_0_0_n_n : DotDims S32768x4096 S4096x4096 S32768x4096 where
  lhsContracting := [1]
  rhsContracting := [1]
  lhsNonContracting := [0]
  rhsNonContracting := [0]
  lhsBatch := []
  rhsBatch := []
  wf := dot_S32768x4096_S4096x4096_S32768x4096_1_1_0_0_n_n_wf

class Facts : Prop extends Facts₀ where

variable [Facts]
-- ==== Proof.KernelRun.lean ====
/-
  The idealized kernel's run with its result array named.

  The program is two launches in a row: the first leaves the column sums of the weight in an intermediate array, the
  second reads that array and x and leaves one number per row of x. Each launch hands the next every buffer it did not
  touch as it found it, and its own arrays at what its write-backs leave. Read at the end of the second launch, the
  result array therefore holds what the second launch's write-backs leave, the launch having been entered from the
  memory the first one left; and the two arguments hold what they held at the start, since neither launch writes them.
-/
import proofs.«106346_j74010876445396_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the second launch's third array. -/
theorem result_is_third_array : (Pipeline.arrRef spec1 2 : Ref sig .tc) = main_v1 := rfl

/-- After both launches the result array holds what the second launch's write-backs leave. -/
theorem result_after (c : Dev nD) :
    W2 m ρ c (Proc.devRef .tc main_v1) = (dat1 (V1 m ρ) c).arrAt 2 cfg1.N :=
  W2_arr m ρ c 2

set_option backward.isDefEq.respectTransparency.types false in
/-- Every weakly fair execution of the program terminates without a fault; at the end the result array holds what the
    second launch's write-backs leave and the two arguments are unchanged. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_after m ρ c),
       (h c _ (mem_uc main_arg0 (by decide))).trans (W2_main_arg0 m ρ c),
       (h c _ (mem_uc main_arg1 (by decide))).trans (W2_main_arg1 m ρ c)⟩)

end Cert.KernelIdeal.Run

end
-- ==== Proof.Payloads.lean ====
/-
  The arithmetic of the two kernel bodies, read at an index over the extended reals.

  The column-sum body adds to the running block the sum of the weight block's 1024 rows, column by column.
  The row body multiplies each row of its x block by the one row of column sums, adds the 4096 products of the row,
  and multiplies the sum by the constant one.
-/
import proofs.«106346_j74010876445396_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen
open Idealize.ShloMosaic Idealize.ShloMosaic.ValueIdx

/-- A vector of length a laid out as a column [a, 1]: entry (i, 0) of the column is entry i of the vector. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a [512, 4096] block along its rows: entry p is the sum of row p's 4096 entries. -/
theorem row_sums_apply (v : FVec Ideal S512x4096 .f32) (p : Fin 512) :
    multiReduction (F := Ideal) .add [1] S512 v 0x00000000#32 reduces_S512x4096_S512 (.inl rfl) rfl (ix1 p)
      = ∑ k : Fin 4096, v (ix2 p k) := by
  refine (Ideal.multiReduction_add_single v 0x00000000#32 reduces_S512x4096_S512 (.inl rfl) rfl (ix1 p)).trans ?_
  refine Finset.sum_congr rfl fun k _ => congrArg v ?_
  funext a
  match a with
  | ⟨0, _⟩ => rfl
  | ⟨1, _⟩ => rfl

/-- The sum of a [1024, 2048] block down its columns: entry q is the sum of column q's 1024 entries. -/
theorem column_sums_apply (v : FVec Ideal S1024x2048 .f32) (q : Fin 2048) :
    multiReduction (F := Ideal) .add [0] S2048 v 0x00000000#32 reduces_S1024x2048_S2048 (.inl rfl) rfl (ix1 q)
      = ∑ r : Fin 1024, v (ix2 r q) := by
  refine (Ideal.multiReduction_add_single v 0x00000000#32 reduces_S1024x2048_S2048 (.inl rfl) rfl (ix1 q)).trans ?_
  refine Finset.sum_congr rfl fun r _ => congrArg v ?_
  funext a
  match a with
  | ⟨0, _⟩ => rfl
  | ⟨1, _⟩ => rfl

/-- The block the column-sum body stores when it starts a new column block: zero everywhere. -/
theorem start_block_apply (u : Fin 1) (q : Fin 2048) :
    k0_pay1 (F := Ideal) (ix2 u q) = Ideal.ofBits .f32 0x00000000#32 := rfl

/-- What the column-sum body stores: the running block plus the column sums of the weight block. -/
theorem add_column_sums_apply (acc : Vec Ideal S1x2048 .f32) (w : Vec Ideal S1024x2048 .f32) (u : Fin 1) (q : Fin 2048) :
    k0_pay2 (F := Ideal) acc w (ix2 u q) = acc (ix2 u q) + ∑ r : Fin 1024, w (ix2 r q) := by
  unfold k0_pay2
  show shapeCast S1x2048 acc shapeCasts_S1x2048_S1x2048 (ix2 u q)
      + shapeCast S1x2048 (multiReduction (F := Ideal) .add [0] S2048 w 0x00000000#32 reduces_S1024x2048_S2048 (.inl rfl) rfl) shapeCasts_S2048_S1x2048 (ix2 u q) = _
  refine congrArg₂ (· + ·) ?_ ?_
  · exact congrFun (shapeCast_self acc shapeCasts_S1x2048_S1x2048) (ix2 u q)
  · exact (shapeCast_a_1a_apply _ shapeCasts_S2048_S1x2048 u q).trans (column_sums_apply w q)

/-- What the row body stores: row p of the x block times the row of column sums, summed, times one. -/
theorem row_times_sums_apply (x : Vec Ideal S512x4096 .f32) (s : Vec Ideal S1x4096 .f32) (p : Fin 512) (u : Fin 1) :
    k1_pay1 (F := Ideal) x s (ix2 p u)
      = (∑ k : Fin 4096, x (ix2 p k) * s (ix2 (0 : Fin 1) k)) * Ideal.ofBits .f32 0x3F800000#32 := by
  unfold k1_pay1
  show shapeCast S512x1 (multiReduction (F := Ideal) .add [1] S512
        (mulf x (broadcastTo S512x4096 (shapeCast S1x4096 s shapeCasts_S1x4096_S1x4096) broadcasts_S1x4096_S512x4096))
        0x00000000#32 reduces_S512x4096_S512 (.inl rfl) rfl) shapeCasts_S512_S512x1 (ix2 p u)
      * Ideal.ofBits .f32 0x3F800000#32 = _
  refine congrArg (· * Ideal.ofBits .f32 0x3F800000#32) ?_
  refine (column_of_vector_apply _ shapeCasts_S512_S512x1 p u).trans ?_
  refine (row_sums_apply _ p).trans ?_
  refine Finset.sum_congr rfl fun k _ => ?_
  show x (ix2 p k) * broadcastTo S512x4096 (shapeCast S1x4096 s shapeCasts_S1x4096_S1x4096) broadcasts_S1x4096_S512x4096 (ix2 p k) = _
  refine congrArg (x (ix2 p k) * ·) ?_
  refine (broadcastTo_1b_ab_apply _ broadcasts_S1x4096_S512x4096 p k).trans ?_
  exact congrFun (shapeCast_self s shapeCasts_S1x4096_S1x4096) (ix2 (0 : Fin 1) k)

end Cert.KernelIdeal.Payloads

end
-- ==== Proof.Spec.lean ====
/-
  The two programs as functions of the argument arrays, over the extended reals, and the law that joins them.

  Write x for the [32768, 4096] argument and W for the [4096, 4096] weight.
  The kernel first forms the column sums s[i] = Σ_h W[h, i], taken as four blocks of 1024 rows added one after the other,
  and then, for each row b of x, the number (Σ_i x[b, i] · s[i]) · 1.
  The reference forms the product P[b, h] = Σ_i x[b, i] · W[h, i] and then (0 + Σ_h P[b, h]) · 1.
  Over the reals the two agree: multiply x[b, i] into the sum that defines s[i] and exchange the two sums. Over the
  extended reals multiplying into a sum can fail at infinities, so the law is stated for arrays whose entries are all real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An a × b array of extended reals. -/
abbrev Mat (a b : ℕ) : Type := (⟨2, ![a, b]⟩ : Shape).Idx → EReal

/-- The constant one, as both programs spell it. -/
abbrev one : EReal := Ideal.ofBits .f32 0x3F800000#32

/-- Entry (h, i) of the weight with the coordinates given as natural numbers (read modulo 4096, so that it is total). -/
def entry (W : Mat 4096 4096) (h i : ℕ) : EReal :=
  W (ix2 ⟨h % 4096, Nat.mod_lt _ (by norm_num)⟩ ⟨i % 4096, Nat.mod_lt _ (by norm_num)⟩)

/-- The column sums of the weight, as a [1, 4096] array. -/
def colSums (W : Mat 4096 4096) : Mat 1 4096 :=
  fun i => ∑ h : Fin 4096, W (ix2 h ⟨(i 1).val, idx2_lt1 i⟩)

/-- Each row of x against one row s, times one: a [32768, 1] array. -/
def rowDots (x : Mat 32768 4096) (s : Mat 1 4096) : Mat 32768 1 :=
  fun j => (∑ k : Fin 4096, x (ix2 ⟨(j 0).val, idx2_lt0 j⟩ k) * s (ix2 (0 : Fin 1) k)) * one

/-- The kernel's result: the rows of x against the column sums of the weight. -/
def viaColSums (x : Mat 32768 4096) (W : Mat 4096 4096) : Mat 32768 1 := rowDots x (colSums W)

/-- The reference's result: the sum of each row of the product x · Wᵀ, from zero, times one. -/
def viaProduct (x : Mat 32768 4096) (W : Mat 4096 4096) : Mat 32768 1 :=
  fun j => (Ideal.ofBits .f32 0x00000000#32
      + ∑ h : Fin 4096, ∑ k : Fin 4096, x (ix2 ⟨(j 0).val, idx2_lt0 j⟩ k) * W (ix2 h k)) * one

/-- A sum over 4096 rows is the sum over four blocks of 1024 rows each (in any commutative monoid). -/
theorem sum_rows_by_blocks {M : Type*} [AddCommMonoid M] (f : Fin 4096 → M) :
    ∑ h : Fin 4096, f h = ∑ j : Fin 4, ∑ r : Fin 1024, f ⟨1024 * j.val + r.val, by have := j.isLt; have := r.isLt; omega⟩ := by
  rw [← Equiv.sum_comp (finProdFinEquiv : Fin 4 × Fin 1024 ≃ Fin 4096) f, Fintype.sum_prod_type]
  refine Finset.sum_congr rfl fun j _ => Finset.sum_congr rfl fun r _ => congrArg f (Fin.ext ?_)
  show r.val + 1024 * j.val = 1024 * j.val + r.val
  omega

/-- Column i of the weight summed block by block, the blocks counted by a natural number below four, is its column sum. -/
theorem four_blocks_eq_colSum (W : Mat 4096 4096) (i : ℕ) (hi : i < 4096) :
    ∑ j ∈ Finset.range 4, ∑ r : Fin 1024, entry W (1024 * j + r.val) i = ∑ h : Fin 4096, W (ix2 h ⟨i, hi⟩) := by
  rw [sum_rows_by_blocks (fun h => W (ix2 h ⟨i, hi⟩)), ← Fin.sum_univ_eq_sum_range (fun j => ∑ r : Fin 1024, entry W (1024 * j + r.val) i) 4]
  refine Finset.sum_congr rfl fun j _ => Finset.sum_congr rfl fun r _ => ?_
  unfold entry
  refine congrArg W ?_
  have hj := j.isLt
  have hr := r.isLt
  funext a
  match a with
  | ⟨0, _⟩ => exact Fin.ext (by show (1024 * j.val + r.val) % 4096 = 1024 * j.val + r.val; omega)
  | ⟨1, _⟩ => exact Fin.ext (by show i % 4096 = i; omega)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For arrays whose entries are all real, the rows of x against the column sums of W are the row sums of
    the product x · Wᵀ: Σ_i x[b,i] · (Σ_h W[h,i]) = Σ_h Σ_i x[b,i] · W[h,i]. -/
theorem viaColSums_eq_viaProduct (x : Mat 32768 4096) (W : Mat 4096 4096)
    (hx : ∀ i, ∃ r : ℝ, x i = (r : EReal)) (hW : ∀ i, ∃ r : ℝ, W i = (r : EReal)) :
    viaColSums x W = viaProduct x W := by
  choose xr hxr using hx
  choose wr hwr using hW
  funext j
  unfold viaColSums viaProduct rowDots colSums
  refine congrArg (· * one) ?_
  rw [Ideal.ofBits_zero_f32, zero_add]
  have hcol : ∀ k : Fin 4096, (∑ h : Fin 4096, W (ix2 h ⟨((ix2 (0 : Fin 1) k : (⟨2, ![1, 4096]⟩ : Shape).Idx) 1).val, idx2_lt1 _⟩))
      = ((∑ h : Fin 4096, wr (ix2 h k) : ℝ) : EReal) := fun k => by
    rw [coe_sum]
    exact Finset.sum_congr rfl fun h _ => hwr _
  simp only [hcol, hxr, hwr, ← EReal.coe_mul, ← coe_sum]
  refine congrArg (fun r : ℝ => (r : EReal)) ?_
  rw [Finset.sum_comm]
  exact Finset.sum_congr rfl fun k _ => Finset.mul_sum _ _ _

end Cert.Spec

end
-- ==== Proof.ColSum.lean ====
/-
  The first launch: the column sums of the weight.

  The launch walks 8 points. Point t takes the block of the weight with rows 1024·(t mod 4) … and columns
  2048·(t div 4) …, and keeps one running [1, 2048] block: at a point with t mod 4 = 0 the running block is set to zero
  first, and at every point the column sums of the weight block are added to it. So after point t the running block
  holds, in column q, the sum over block rows 0 … t mod 4 of the 1024 entries of column 2048·(t div 4) + q in that block row.
  The running block is written back after the points with t mod 4 = 3, when all four block rows have been added: the
  two write-backs tile the [1, 4096] array, which therefore ends holding the column sums of the weight.
-/
import proofs.«106346_j74010876445396_2_alg».proof.Proof.Gen.KernelIdeal.Frame
import proofs.«106346_j74010876445396_2_alg».proof.Proof.Payloads
import proofs.«106346_j74010876445396_2_alg».proof.Proof.Spec
import Idealize.ShloMosaic.Lib.Pipeline.Value
import Idealize.ShloMosaic.Lib.Tactic

set_option maxRecDepth 16384

noncomputable section

namespace Cert.KernelIdeal.ColSum

open Cert.KernelIdeal Cert.KernelIdeal.Gen Cert.KernelIdeal.Payloads Cert.Spec
open Idealize.ShloMosaic Idealize.ShloMosaic.TcCoe Idealize.ShloMosaic.Tactic Idealize.SL.Sem Idealize.ShloMosaic.ValueIdx
open Idealize.ShloMosaic.Pipeline (Dat)

variable (V : (c : Dev nD) → (b : Ref sig .tc) → Buf (Elt Ideal) ((c : Thread nD τ).loc b))

theorem no_offset : (![0, 0] : Fin 2 → Nat) = fun _ => 0 := funext fun a => by fin_cases a <;> rfl

/-- At a point that does not start a column block, the body leaves the running block plus the column sums of the
    weight block: its one store covers the running block, and its loads read the whole buffers. -/
theorem later_point_value (c : Dev nD) (i : grid0.Coords) (a2 : Memref sig .tc .vmem S1024x2048 .f32) (h2 : a2.IsWhole)
    (a3 : Memref sig .tc .vmem S1x2048 .f32) (h3 : a3.IsWhole) (hc : ¬cond0_0 i)
    (w : Vec Ideal S1024x2048 .f32) (acc : Vec Ideal S1x2048 .f32) :
    out0_B_1 (F := Ideal) c i a2 h2 a3 h3 hc w acc = k0_pay2 (F := Ideal) acc w := by
  unfold out0_B_1
  rw [View.read_writes_eq_canon _ _ _ (cover0_B_1 c i a2 h2 a3 h3 hc w acc)]
  unfold kernelRun0_B
  dsimp only
  rw [View.canon_unit_zero no_offset]
  simp only [View.readAt_eq_ld, h2.read_unread, h3.read_unread, View.ld_unit_zero (S := S1024x2048) no_offset,
    View.ld_unit_zero (S := S1x2048) no_offset]

/-- At a point that starts a column block, the body stores the zero block, reads it back, and leaves zero plus the
    column sums of the weight block. -/
theorem first_point_value (c : Dev nD) (i : grid0.Coords) (a2 : Memref sig .tc .vmem S1024x2048 .f32) (h2 : a2.IsWhole)
    (a3 : Memref sig .tc .vmem S1x2048 .f32) (h3 : a3.IsWhole) (hc : cond0_0 i)
    (w : Vec Ideal S1024x2048 .f32) :
    out0_A_1 (F := Ideal) c i a2 h2 a3 h3 hc w = k0_pay2 (F := Ideal) (k0_pay1 (F := Ideal)) w := by
  unfold out0_A_1
  rw [View.read_writes_eq_canon _ _ _ (cover0_A_1 c i a2 h2 a3 h3 hc w)]
  unfold kernelRun0_A
  dsimp only
  sl_unfold_words
  rw [View.canon_cons_unit_zero (S := S1x2048) no_offset, View.readCov_unit_zero (S := S1x2048) _ no_offset]
  simp only [View.readAt_eq_ld, h2.read_unread, View.ld_unit_zero (S := S1024x2048) no_offset,
    View.ld_unit_zero (S := S1x2048) no_offset]

/-- Where each window's block sits at point t: the weight block at block row t mod 4 and block column t div 4, the
    running block at block column t div 4 of the one row of sums. -/
theorem block_indices : ∀ t : Fin cfg0.N, win0_0.index t (0 : Fin 2) = t.val % 4 ∧ win0_0.index t (1 : Fin 2) = t.val / 4
    ∧ win0_1.index t (0 : Fin 2) = 0 ∧ win0_1.index t (1 : Fin 2) = t.val / 4 :=
  (by decide +kernel : ∀ t : Fin grid0.N, _)

/-- Entry (r, q) of the weight block at point t is entry (1024·(t mod 4) + r, 2048·(t div 4) + q) of the weight. -/
theorem weight_block_apply (c : Dev nD) (t : Fin cfg0.N) (r : Fin 1024) (q : Fin 2048) :
    (iblk0 V c 0 t : Vec Ideal S1024x2048 .f32) (ix2 r q)
      = entry (V c main_arg1) (1024 * (t.val % 4) + r.val) (2048 * (t.val / 4) + q.val) := by
  obtain ⟨e0, e1, -⟩ := block_indices t
  have hN : cfg0.N = 8 := N_0
  have ht := t.isLt
  have hr := r.isLt
  have hq := q.isLt
  unfold iblk0 entry
  rw [View.read_apply]
  show V c main_arg1 (((cfg0.win 0).blk t).view.emb (ix2 r q)) = _
  refine congrArg (V c main_arg1) (funext fun a => Fin.ext ?_)
  match a with
  | ⟨0, _⟩ => show win0_0.index t (0 : Fin 2) * 1024 + 1 * r.val = (1024 * (t.val % 4) + r.val) % 4096; rw [e0]; omega
  | ⟨1, _⟩ => show win0_0.index t (1 : Fin 2) * 2048 + 1 * q.val = (2048 * (t.val / 4) + q.val) % 4096; rw [e1]; omega

/-- THE RUNNING BLOCK after point n: in column q, the sum over the block rows 0 … n mod 4 of the 1024 entries of column
    2048·(n div 4) + q in that block row. By induction on the point. -/
theorem running_block (c : Dev nD) : ∀ (n : ℕ) (h : n < cfg0.N) (u : Fin 1) (q : Fin 2048),
    outsAt0 V c n h (ix2 u q)
      = ∑ j ∈ Finset.range (n % 4 + 1), ∑ r : Fin 1024, entry (V c main_arg1) (1024 * j + r.val) (2048 * (n / 4) + q.val)
  | 0, h, u, q => by
    have e : outsAt0 V c 0 h = k0_pay2 (F := Ideal) (k0_pay1 (F := Ideal)) (iblk0 V c 0 ⟨0, h⟩) :=
      (outsAt0_A V c ⟨0, h⟩ rfl).trans (first_point_value c (grid0.coords ⟨0, h⟩) (ms0_0 ⟨0, h⟩) (hs0_0 ⟨0, h⟩) (ms0_1 ⟨0, h⟩) (hs0_1 ⟨0, h⟩) _ (iblk0 V c 0 ⟨0, h⟩))
    rw [e]
    refine (add_column_sums_apply _ _ u q).trans ?_
    rw [start_block_apply, Ideal.ofBits_zero_f32, zero_add]
    show _ = ∑ j ∈ Finset.range 1, ∑ r : Fin 1024, entry (V c main_arg1) (1024 * j + r.val) (2048 * (0 / 4) + q.val)
    rw [Finset.sum_range_one]
    refine Finset.sum_congr rfl fun r _ => ?_
    exact weight_block_apply V c ⟨0, h⟩ r q
  | n + 1, h, u, q => by
    have hN : cfg0.N = 8 := N_0
    by_cases h0 : (n + 1) % 4 = 0
    · have e : outsAt0 V c (n + 1) h = k0_pay2 (F := Ideal) (k0_pay1 (F := Ideal)) (iblk0 V c 0 ⟨n + 1, h⟩) :=
        (outsAt0_A V c ⟨n + 1, h⟩ h0).trans (first_point_value c (grid0.coords ⟨n + 1, h⟩) (ms0_0 ⟨n + 1, h⟩) (hs0_0 ⟨n + 1, h⟩) (ms0_1 ⟨n + 1, h⟩) (hs0_1 ⟨n + 1, h⟩) _ (iblk0 V c 0 ⟨n + 1, h⟩))
      rw [e]
      refine (add_column_sums_apply _ _ u q).trans ?_
      rw [start_block_apply, Ideal.ofBits_zero_f32, zero_add, h0, Nat.zero_add, Finset.sum_range_one]
      refine Finset.sum_congr rfl fun r _ => ?_
      refine (weight_block_apply V c ⟨n + 1, h⟩ r q).trans ?_
      show entry (V c main_arg1) (1024 * ((n + 1) % 4) + r.val) (2048 * ((n + 1) / 4) + q.val) = _
      rw [h0]
    · have hB : ¬(⟨n + 1, h⟩ : Fin cfg0.N).val % 4 = 0 := h0
      have e : outsAt0 V c (n + 1) h
          = k0_pay2 (F := Ideal) (outsAt0 V c n (Nat.lt_of_succ_lt h)) (iblk0 V c 0 ⟨n + 1, h⟩) :=
        (outsAt0_B V c ⟨n + 1, h⟩ hB).trans (later_point_value c (grid0.coords ⟨n + 1, h⟩) (ms0_0 ⟨n + 1, h⟩) (hs0_0 ⟨n + 1, h⟩) (ms0_1 ⟨n + 1, h⟩) (hs0_1 ⟨n + 1, h⟩) _ (iblk0 V c 0 ⟨n + 1, h⟩) (outsAt0 V c n (Nat.lt_of_succ_lt h)))
      rw [e]
      refine (add_column_sums_apply _ _ u q).trans ?_
      rw [running_block c n (Nat.lt_of_succ_lt h) u q]
      have e1 : (n + 1) % 4 = n % 4 + 1 := by omega
      have e2 : (n + 1) / 4 = n / 4 := by omega
      rw [e1, e2, Finset.sum_range_succ _ (n % 4 + 1)]
      refine congrArg (_ + ·) (Finset.sum_congr rfl fun r _ => ?_)
      refine (weight_block_apply V c ⟨n + 1, h⟩ r q).trans ?_
      show entry (V c main_arg1) (1024 * ((n + 1) % 4) + r.val) (2048 * ((n + 1) / 4) + q.val) = _
      rw [e1, e2]

/-- What a flushing point writes back is its block of the column sums: at such a point all four block rows of its
    columns have been added. -/
theorem flushed_eq (c : Dev nD) (t : Fin cfg0.N) (hf : (cfg0.win 1).flush t = true) :
    (dat0 V c).flushed 1 t = ((cfg0.win 1).blk t).view.read (Elt Ideal) (colSums (V c main_arg1)) := by
  have hN : cfg0.N = 8 := N_0
  have h3 : t.val % 4 = 3 := (flush0_1 t).mp hf
  obtain ⟨-, -, e2, e3⟩ := block_indices t
  have ht := t.isLt
  show (cfg0.win 1).cut (grid0.coords t) ((dat0 V c).after 1 t) = _
  rw [after0_1]
  refine funext fun (y : S1x2048.Idx) => ?_
  obtain ⟨u, q, rfl⟩ : ∃ (u : Fin 1) (q : Fin 2048), y = ix2 u q := ⟨y 0, y 1, eq_ix2 y⟩
  have hq := q.isLt
  show outsAt0 V c t.val t.isLt (ix2 u q) = colSums (V c main_arg1) (((cfg0.win 1).blk t).view.emb (ix2 u q))
  rw [running_block V c t.val t.isLt u q, h3]
  unfold colSums
  refine (four_blocks_eq_colSum (V c main_arg1) (2048 * (t.val / 4) + q.val) (by omega)).trans ?_
  refine Finset.sum_congr rfl fun h _ => congrArg (fun z => V c main_arg1 (ix2 h z)) (Fin.ext ?_)
  show 2048 * (t.val / 4) + q.val = win0_1.index t (1 : Fin 2) * 2048 + 1 * q.val
  rw [e3]; omega

/-- An entry of the array of sums lies in point t's block exactly when each coordinate lies in the block's range. -/
theorem mem_block (t : Fin cfg0.N) (i : S1x4096.Idx) :
    i ∈ ((cfg0.win 1).blk t).view.set ↔ ∀ a : Fin 2, win0_1.index t a * S1x2048.size a ≤ (i a).val ∧ (i a).val < win0_1.index t a * S1x2048.size a + S1x2048.size a := by
  show i ∈ ((View.whole main_v0).slice (win0_1.rect t)).set ↔ _
  rw [View.set_slice_whole, Rect.mem_set_unit]
  exact Iff.rfl

/-- After the launch the array of sums holds the column sums of the weight: column i lies in the block written back
    at point 4·(i div 2048) + 3. -/
theorem sums_array (c : Dev nD) : (dat0 V c).arrAt 1 cfg0.N = colSums (V c main_arg1) :=
  (dat0 V c).arrAt_eq_of_cover 1 (colSums (V c main_arg1)) (fun t hf => flushed_eq V c t hf) fun (i : S1x4096.Idx) => by
    have hN : cfg0.N = 8 := N_0
    have h0 : (i 0).val < 1 := (i 0).isLt
    have h1 : (i 1).val < 4096 := (i 1).isLt
    have hq : 4 * ((i 1).val / 2048) + 3 < cfg0.N := by rw [hN]; omega
    obtain ⟨-, -, e2, e3⟩ := block_indices ⟨4 * ((i 1).val / 2048) + 3, hq⟩
    refine ⟨⟨4 * ((i 1).val / 2048) + 3, hq⟩, (flush0_1 _).mpr (by dsimp only; omega), ?_⟩
    rw [mem_block]
    intro a
    match a with
    | ⟨0, _⟩ =>
      show win0_1.index ⟨4 * ((i 1).val / 2048) + 3, hq⟩ (0 : Fin 2) * 1 ≤ (i 0).val ∧ (i 0).val < win0_1.index ⟨4 * ((i 1).val / 2048) + 3, hq⟩ (0 : Fin 2) * 1 + 1
      rw [e2]; omega
    | ⟨1, _⟩ =>
      show win0_1.index ⟨4 * ((i 1).val / 2048) + 3, hq⟩ (1 : Fin 2) * 2048 ≤ (i 1).val ∧ (i 1).val < win0_1.index ⟨4 * ((i 1).val / 2048) + 3, hq⟩ (1 : Fin 2) * 2048 + 2048
      rw [e3]; dsimp only; omega

end Cert.KernelIdeal.ColSum

end
-- ==== Proof.MatVec.lean ====
/-
  The second launch: one number per row of x.

  The launch walks 64 points; point t takes rows 512·t … 512·t + 511 of x and the whole row of column sums, and writes
  back the 512 numbers (Σ_k x[512·t + p, k] · s[k]) · 1. The 64 blocks tile the result array, so after the launch entry
  (b, 0) of the result is row b of x against s, whatever x and s the launch was entered with.
-/
import proofs.«106346_j74010876445396_2_alg».proof.Proof.Gen.KernelIdeal.Frame
import proofs.«106346_j74010876445396_2_alg».proof.Proof.Payloads
import proofs.«106346_j74010876445396_2_alg».proof.Proof.Spec
import Idealize.ShloMosaic.Lib.Pipeline.Value

set_option maxRecDepth 16384

noncomputable section

namespace Cert.KernelIdeal.MatVec

open Cert.KernelIdeal Cert.KernelIdeal.Gen Cert.KernelIdeal.Payloads Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem no_offset : (![0, 0] : Fin 2 → Nat) = fun _ => 0 := funext fun a => by fin_cases a <;> rfl

/-- Where each window's block sits at point t: the x block and the result block at block row t, the row of column
    sums always at its one block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the block of x at point t is row 512·t + p of x. -/
theorem x_block_apply (c : Dev nD) (t : Fin cfg1.N) (p : Fin 512) (k : Fin 4096) (b : Fin 32768) (hb : b.val = 512 * t.val + p.val) :
    (iblk1 V c 0 t : Vec Ideal S512x4096 .f32) (ix2 p k) = V c main_arg0 (ix2 b k) := by
  obtain ⟨e0, e1, -⟩ := block_indices t
  unfold iblk1
  rw [View.read_apply]
  show V c main_arg0 (((cfg1.win 0).blk t).view.emb (ix2 p k)) = _
  refine congrArg (V c main_arg0) (funext fun a => Fin.ext ?_)
  match a with
  | ⟨0, _⟩ => show win1_0.index t (0 : Fin 2) * 512 + 1 * p.val = b.val; rw [e0, hb]; omega
  | ⟨1, _⟩ => show win1_0.index t (1 : Fin 2) * 4096 + 1 * k.val = k.val; rw [e1]; omega

/-- The block of column sums at any point is the whole row. -/
theorem sums_block_apply (c : Dev nD) (t : Fin cfg1.N) (k : Fin 4096) :
    (iblk1 V c 1 t : Vec Ideal S1x4096 .f32) (ix2 (0 : Fin 1) k) = V c main_v0 (ix2 (0 : Fin 1) k) := by
  obtain ⟨-, -, e2, e3, -⟩ := block_indices t
  unfold iblk1
  rw [View.read_apply]
  show V c main_v0 (((cfg1.win 1).blk t).view.emb (ix2 (0 : Fin 1) k)) = _
  refine congrArg (V c main_v0) (funext fun a => Fin.ext ?_)
  match a with
  | ⟨0, _⟩ => show win1_1.index t (0 : Fin 2) * 1 + 1 * 0 = 0; rw [e2]
  | ⟨1, _⟩ => show win1_1.index t (1 : Fin 2) * 4096 + 1 * k.val = k.val; rw [e3]; omega

/-- What point t writes back is block t of the rows of x against the column sums. -/
theorem flushed_eq (c : Dev nD) (t : Fin cfg1.N) :
    (dat1 V c).flushed 2 t = ((cfg1.win 2).blk t).view.read (Elt Ideal) (rowDots (V c main_arg0) (V c main_v0)) := by
  obtain ⟨-, -, -, -, e4, e5⟩ := block_indices t
  have hN : cfg1.N = 64 := N_1
  have ht := t.isLt
  show (cfg1.win 2).cut (grid1.coords t) ((dat1 V c).after 2 t) = _
  rw [after1_2]
  unfold out1_2
  rw [View.canon_unit_zero no_offset]
  simp only [View.ld_unit_zero (S := S512x4096) no_offset, View.ld_unit_zero (S := S1x4096) no_offset]
  refine funext fun (y : S512x1.Idx) => ?_
  obtain ⟨p, u, rfl⟩ : ∃ (p : Fin 512) (u : Fin 1), y = ix2 p u := ⟨y 0, y 1, eq_ix2 y⟩
  show k1_pay1 (F := Ideal) (iblk1 V c 0 t) (iblk1 V c 1 t) (ix2 p u)
    = rowDots (V c main_arg0) (V c main_v0) (((cfg1.win 2).blk t).view.emb (ix2 p u))
  refine (row_times_sums_apply (iblk1 V c 0 t) (iblk1 V c 1 t) p u).trans ?_
  unfold rowDots
  refine congrArg (· * one) (Finset.sum_congr rfl fun k _ => ?_)
  have hp := p.isLt
  refine congrArg₂ (· * ·) ?_ (sums_block_apply V c t k)
  refine x_block_apply V c t p k _ ?_
  show win1_2.index t (0 : Fin 2) * 512 + 1 * p.val = 512 * t.val + p.val
  rw [e4]; omega

/-- An entry of the result array lies in point t's block exactly when each coordinate lies in the block's range. -/
theorem mem_block (t : Fin cfg1.N) (i : S32768x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1).slice (win1_2.rect t)).set ↔ _
  rw [View.set_slice_whole, Rect.mem_set_unit]
  exact Iff.rfl

/-- After the launch the result array holds the rows of x against the column sums: row b lies in the block of point b / 512. -/
theorem result_array (c : Dev nD) : (dat1 V c).arrAt 2 cfg1.N = rowDots (V c main_arg0) (V c main_v0) :=
  (dat1 V c).arrAt_eq_of_cover 2 (rowDots (V c main_arg0) (V c main_v0)) (fun t _ => flushed_eq V c t) fun (i : S32768x1.Idx) => by
    have hN : cfg1.N = 64 := N_1
    have h0 : (i 0).val < 32768 := (i 0).isLt
    have h1 : (i 1).val < 1 := (i 1).isLt
    have hq : (i 0).val / 512 < cfg1.N := by rw [hN]; omega
    obtain ⟨-, -, -, -, e4, e5⟩ := block_indices ⟨(i 0).val / 512, hq⟩
    refine ⟨⟨(i 0).val / 512, hq⟩, flush1_2 _, ?_⟩
    rw [mem_block]
    intro a
    match a with
    | ⟨0, _⟩ =>
      show win1_2.index ⟨(i 0).val / 512, hq⟩ (0 : Fin 2) * 512 ≤ (i 0).val ∧ (i 0).val < win1_2.index ⟨(i 0).val / 512, hq⟩ (0 : Fin 2) * 512 + 512
      rw [e4]; dsimp only; omega
    | ⟨1, _⟩ =>
      show win1_2.index ⟨(i 0).val / 512, hq⟩ (1 : Fin 2) * 1 ≤ (i 1).val ∧ (i 1).val < win1_2.index ⟨(i 0).val / 512, hq⟩ (1 : Fin 2) * 1 + 1
      rw [e5]; omega

end Cert.KernelIdeal.MatVec

end
-- ==== Proof.KernelValue.lean ====
/-
  The idealized kernel's result as one function of its two arguments.

  The second launch is entered from the memory the first one left: there the array of sums holds the column sums of
  the weight (the first launch's value), and x is as it was at the start, the first launch not having touched it. The
  second launch leaves, in row b of the result, row b of x against that array of sums. So the result is the rows of x
  against the column sums of the weight.
-/
import proofs.«106346_j74010876445396_2_alg».proof.Proof.KernelRun
import proofs.«106346_j74010876445396_2_alg».proof.Proof.ColSum
import proofs.«106346_j74010876445396_2_alg».proof.Proof.MatVec

set_option maxRecDepth 16384

noncomputable section

namespace Cert.KernelIdeal.KernelValue

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- The second launch finds x as it was at the start. -/
theorem x_at_second_launch (c : Dev nD) : V1 m ρ c main_arg0 = m ((c : Thread nD τ).loc main_arg0) :=
  W1_of_ne m ρ c main_arg0 (by decide)

/-- The second launch finds the array of sums holding the column sums of the weight. -/
theorem sums_at_second_launch (c : Dev nD) : V1 m ρ c main_v0 = colSums (m ((c : Thread nD τ).loc main_arg1)) :=
  (W1_arr m ρ c 1).trans (ColSum.sums_array (V0 m ρ) c)

/-- What the second launch's write-backs leave in the result array: the rows of x against the column sums of the weight. -/
theorem result_value (c : Dev nD) :
    (dat1 (V1 m ρ) c).arrAt 2 cfg1.N
      = viaColSums (m ((c : Thread nD τ).loc main_arg0)) (m ((c : Thread nD τ).loc main_arg1)) := by
  rw [MatVec.result_array (V1 m ρ) c, x_at_second_launch m ρ c, sums_at_second_launch m ρ c]
  rfl

/-- The idealized kernel's run, read: the result array at that function of the arguments, the arguments unchanged. -/
theorem run : θ_run defs (onTc (τ := τ) (main (F := Ideal))) ⟨m, fun _ => 0, ρ⟩ (fun r => ∀ c : Dev nD,
      r.2.mem ((c.tc : Thread nD τ).loc main_v1)
        = viaColSums (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_value m ρ c), (h c).2⟩) (Run.run_named m ρ)

end Cert.KernelIdeal.KernelValue

end
-- ==== Proof.RefValue.lean ====
/-
  The reference, read index by index: entry (b, 0) of its result is (0 + Σ_h Σ_k x[b, k] · W[h, k]) · 1 — the product
  x · Wᵀ at (b, h) is Σ_k x[b, k] · W[h, k], its row b is summed from zero, the sum is multiplied by the constant one,
  and the vector of these numbers is laid out as a column.
-/
import proofs.«106346_j74010876445396_2_alg».proof.Proof.Gen.ReferenceIdeal.Read
import proofs.«106346_j74010876445396_2_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.ValueIdx

/-- The reference's last stage is the row sums of the product, from zero, times one. -/
theorem reference_is_viaProduct (x : (⟨S32768x4096, .f32⟩ : BufTy).Contents (Elt Ideal)) (W : (⟨S4096x4096, .f32⟩ : BufTy).Contents (Elt Ideal)) :
    val_main_v4 (F := Ideal) x W = viaProduct x W := by
  funext j
  rw [val_main_v4_apply, val_main_v3_apply, val_main_v1_apply, val_main_v2_apply, val_main_cst_0_apply, val_main_cst_apply]
  simp only [val_main_v0_apply, Ideal.mulf_def, Ideal.ofBits_def]
  unfold viaProduct
  refine congrArg (· * one) (congrArg (_ + ·) (Finset.sum_congr rfl fun h _ => Finset.sum_congr rfl fun k _ => ?_))
  refine congrArg₂ (· * ·) (congrArg x ?_) (congrArg W ?_)
  · funext a
    match a with
    | ⟨0, _⟩ => rfl
    | ⟨1, _⟩ => rfl
  · funext a
    match a with
    | ⟨0, _⟩ => rfl
    | ⟨1, _⟩ => rfl

end Cert.ReferenceIdeal.RefValue

end
-- ==== Proof.Finite.lean ====
/-
  What the precondition says: every entry of x and of the weight is a real number.

  The precondition compares the absolute value of every entry with +∞ and takes the conjunction of all the
  comparisons. An extended real whose absolute value is below +∞ is neither +∞ nor −∞ (the absolute value of −∞ is +∞),
  so it is a real.
-/
import proofs.«106346_j74010876445396_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic

/-- The rank-0 shape has one index. -/
instance : Subsingleton S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value is strictly below +∞ is a real number. -/
theorem real_of_abs_lt_inf (x : EReal) (h : Ideal.cmp .olt (max x (-x)) (Ideal.ofBits .f32 0x7F800000#32) = 1#1) :
    ∃ r : ℝ, x = (r : EReal) := by
  rw [inf_word] at h
  induction x using EReal.rec with
  | bot => exfalso; simp [Ideal.cmp] at h
  | coe r => exact ⟨r, rfl⟩
  | top => exfalso; simp [Ideal.cmp] at h

/-- If the precondition's function is all ones then every entry of both arrays is real. -/
theorem entries_real [Facts] (x : FVec Ideal S32768x4096 .f32) (W : FVec Ideal S4096x4096 .f32)
    (h : fn (F := Ideal) x W = fun _ => 1#1) :
    (∀ i, ∃ r : ℝ, x i = (r : EReal)) ∧ (∀ i, ∃ r : ℝ, W i = (r : EReal)) := by
  have h0 := congrFun h ValueIdx.ix0
  dsimp only [fn] at h0
  obtain ⟨ha, hb⟩ := IntOp.andi_eq_one.mp h0
  exact ⟨fun i => real_of_abs_lt_inf (x i) (Host.reduce_andi_all _ _ _ _ _ ha i),
    fun i => real_of_abs_lt_inf (W i) (Host.reduce_andi_all _ _ _ _ _ hb i)⟩

end Cert.Pre_finite_inputs.Finite

end
-- ==== Proof.lean ====
/-
  The kernel computes, for each row b of x, the number (Σ_i x[b, i] · s[i]) · 1 where s[i] = Σ_h W[h, i] are the column
  sums of the weight, formed by a first launch in four blocks of 1024 rows; the reference computes (0 + Σ_h P[b, h]) · 1
  where P = x · Wᵀ. Over the reals the two are equal: multiply x[b, i] into the sum that defines s[i] and exchange the
  two sums. Multiplying into a sum can fail at infinities, so the equality uses the precondition: every entry of x and
  of the weight is a real number.

  The three frames: each kernel program terminates without a fault and leaves its arguments as they were; the
  reference's frame is its run with the result dropped. The idealization rewrote nothing, so there is nothing to
  preserve. The equality of the two results: the kernel's run with its result named (two launches in a row, the second
  entered from what the first left), the reference's run read index by index, and the law above.
-/
import proofs.«106346_j74010876445396_2_alg».proof.Defs
import proofs.«106346_j74010876445396_2_alg».proof.Proof.Gen.Kernel
import proofs.«106346_j74010876445396_2_alg».proof.Proof.Gen.Kernel.Skeleton
import proofs.«106346_j74010876445396_2_alg».proof.Proof.Gen.Kernel.Launch
import proofs.«106346_j74010876445396_2_alg».proof.Proof.Gen.Kernel.Points
import proofs.«106346_j74010876445396_2_alg».proof.Proof.Gen.Kernel.Frame
import proofs.«106346_j74010876445396_2_alg».proof.Proof.Gen.KernelIdeal
import proofs.«106346_j74010876445396_2_alg».proof.Proof.Gen.KernelIdeal.Skeleton
import proofs.«106346_j74010876445396_2_alg».proof.Proof.Gen.KernelIdeal.Launch
import proofs.«106346_j74010876445396_2_alg».proof.Proof.Gen.KernelIdeal.Points
import proofs.«106346_j74010876445396_2_alg».proof.Proof.Gen.KernelIdeal.Frame
import proofs.«106346_j74010876445396_2_alg».proof.Proof.Gen.ReferenceIdeal
import proofs.«106346_j74010876445396_2_alg».proof.Proof.Gen.ReferenceIdeal.Run
import proofs.«106346_j74010876445396_2_alg».proof.Proof.Gen.ReferenceIdeal.Read
import proofs.«106346_j74010876445396_2_alg».proof.Proof.Gen.Pre_finite_inputs
import proofs.«106346_j74010876445396_2_alg».proof.Proof.KernelValue
import proofs.«106346_j74010876445396_2_alg».proof.Proof.RefValue
import proofs.«106346_j74010876445396_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments, with every entry real, the kernel's result (the rows of x against the
    column sums of the weight) and the reference's (the row sums of the product) are the same array. -/
theorem algebraic : Cert.algebraic_KernelIdeal_ReferenceIdeal := by
  intro m ρ m' ρ' hpre hagree
  refine ⟨fun c => Cert.Spec.viaColSums (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.reference_is_viaProduct,
    (hagree c).1, (hagree c).2]
  obtain ⟨hx, hW⟩ := Cert.Pre_finite_inputs.Finite.entries_real _ _ (hpre c)
  exact (Cert.Spec.viaColSums_eq_viaProduct _ _ hx hW).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
